-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x384 : Shape := ⟨2, ![4096, 384]⟩
abbrev S128x96 : Shape := ⟨2, ![128, 96]⟩
abbrev S96 : Shape := ⟨1, ![96]⟩
abbrev S259x512 : Shape := ⟨2, ![259, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S4096x384 : S_.BroadcastsInDim S4096x384 (![] : Fin 0 → Fin S4096x384.rank)
  reducesTo_S4096x384_S_d0_1 : S4096x384.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S259x512 : S_.BroadcastsInDim S259x512 (![] : Fin 0 → Fin S259x512.rank)
  reducesTo_S259x512_S_d0_1 : S259x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S512x256 .f32) (main_arg8 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x256 .f32) (main_arg8 : FVec F S256 .f32) (main_v13 : IVec S_ 1) (main_v16 : IVec S259x512 1) : IVec S_ 1 :=
  let main_c_5 : IVec S_ 1 := constantI S_ 1 1#1
  let main_v17 : IVec S_ 1 := (fun x v => Host.reduce IntOp.andi x v reducesTo_S259x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S4096x384 .f32) (main_arg1 : FVec F S128x96 .f32) (main_arg2 : FVec F S96 .f32) (main_arg3 : FVec F S259x512 .f32) (main_arg4 : FVec F S512 .f32) (main_arg5 : FVec F S512x512 .f32) (main_arg6 : FVec F S512 .f32) (main_arg7 : FVec F S512x256 .f32) (main_arg8 : FVec F S256 .f32) : IVec S_ 1 :=
  let main_v0 : FVec F S4096x384 .f32 := Host.absf main_arg0
  let main_cst : FVec F S_ .f32 := constant S_ .f32 0x7F800000#32
  let main_v1 : FVec F S4096x384 .f32 := broadcastInDim S4096x384 ![] bcast_S_S4096x384 main_cst
  let main_v2 : IVec S4096x384 1 := cmpf .olt main_v0 main_v1
  let main_c : IVec S_ 1 := constantI S_ 1 1#1
  let main_v3 : IVec S_ 1 := (fun x v => Host.reduce IntOp.andi x v reducesTo_S4096x384_S_d0_1 h_S_) main_v2 main_c
  let main_v4 : FVec F S128x96 .f32 := Host.absf main_arg1
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S259x512 .f32 := Host.absf main_arg3
  let main_cst_4 : FVec F S_ .f32 := constant S_ .f32 0x7F800000#32
  let main_v15 : FVec F S259x512 .f32 := broadcastInDim S259x512 ![] bcast_S_S259x512 main_cst_4
  let main_v16 : IVec S259x512 1 := cmpf .olt main_v14 main_v15
  fn_part1 (F := F) main_arg4 main_arg5 main_arg6 main_arg7 main_arg8 main_v13 main_v16
-- ==== Kernel.lean ====
abbrev S4096x384 : Shape := ⟨2, ![4096, 384]⟩
abbrev S128x96 : Shape := ⟨2, ![128, 96]⟩
abbrev S96 : Shape := ⟨1, ![96]⟩
abbrev S259x512 : Shape := ⟨2, ![259, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x512 : Shape := ⟨2, ![256, 512]⟩
abbrev S3x512 : Shape := ⟨2, ![3, 512]⟩
abbrev S131072x3 : Shape := ⟨2, ![131072, 3]⟩
abbrev S131072x256 : Shape := ⟨2, ![131072, 256]⟩
abbrev S64x384 : Shape := ⟨2, ![64, 384]⟩
abbrev S2048x3 : Shape := ⟨2, ![2048, 3]⟩
abbrev S2048x256 : Shape := ⟨2, ![2048, 256]⟩
abbrev S64x128 : Shape := ⟨2, ![64, 128]⟩
abbrev S64x256 : Shape := ⟨2, ![64, 256]⟩
abbrev S64x96 : Shape := ⟨2, ![64, 96]⟩
abbrev S1x96 : Shape := ⟨2, ![1, 96]⟩
abbrev S64x1x256 : Shape := ⟨3, ![64, 1, 256]⟩
abbrev S64x32x256 : Shape := ⟨3, ![64, 32, 256]⟩
abbrev S2048x512 : Shape := ⟨2, ![2048, 512]⟩
abbrev S1x512 : Shape := ⟨2, ![1, 512]⟩
abbrev S1x256 : Shape := ⟨2, ![1, 256]⟩
abbrev S4096 : Shape := ⟨1, ![4096]⟩
abbrev S4096x32 : Shape := ⟨2, ![4096, 32]⟩
abbrev S131072 : Shape := ⟨1, ![131072]⟩

abbrev nBuf : Space → Nat
  | .hbm => 21
  | .vmem => 15
  | .smem => 0
  | _ => 0

abbrev bufTy : (tb : Table) → Fin (tcTables nBuf tb) → BufTy
  | .hbm, ⟨0, _⟩ => ⟨S4096x384, .f32⟩
  | .hbm, ⟨1, _⟩ => ⟨S128x96, .f32⟩
  | .hbm, ⟨2, _⟩ => ⟨S96, .f32⟩
  | .hbm, ⟨3, _⟩ => ⟨S259x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x512, .f32⟩
  | .hbm, ⟨10, _⟩ => ⟨S3x512, .f32⟩
  | .hbm, ⟨11, _⟩ => ⟨S128x96, .bf16⟩
  | .hbm, ⟨12, _⟩ => ⟨S256x512, .bf16⟩
  | .hbm, ⟨13, _⟩ => ⟨S3x512, .bf16⟩
  | .hbm, ⟨14, _⟩ => ⟨S512x512, .bf16⟩
  | .hbm, ⟨15, _⟩ => ⟨S512x256, .bf16⟩
  | .hbm, ⟨16, _⟩ => ⟨S131072x3, .f32⟩
  | .hbm, ⟨17, _⟩ => ⟨S131072x256, .f32⟩
  | .hbm, ⟨18, _⟩ => ⟨S4096, .i32⟩
  | .hbm, ⟨19, _⟩ => ⟨S4096x32, .i32⟩
  | .hbm, ⟨20, _⟩ => ⟨S131072, .i32⟩
  | .local _ .vmem, ⟨0, _⟩ => ⟨S64x384, .f32⟩
  | .local _ .vmem, ⟨1, _⟩ => ⟨S64x384, .f32⟩
  | .local _ .vmem, ⟨2, _⟩ => ⟨S128x96, .bf16⟩
  | .local _ .vmem, ⟨3, _⟩ => ⟨S96, .f32⟩
  | .local _ .vmem, ⟨4, _⟩ => ⟨S256x512, .bf16⟩
  | .local _ .vmem, ⟨5, _⟩ => ⟨S3x512, .bf16⟩
  | .local _ .vmem, ⟨6, _⟩ => ⟨S512, .f32⟩
  | .local _ .vmem, ⟨7, _⟩ => ⟨S512x512, .bf16⟩
  | .local _ .vmem, ⟨8, _⟩ => ⟨S512, .f32⟩
  | .local _ .vmem, ⟨9, _⟩ => ⟨S512x256, .bf16⟩
  | .local _ .vmem, ⟨10, _⟩ => ⟨S256, .f32⟩
  | .local _ .vmem, ⟨11, _⟩ => ⟨S2048x3, .f32⟩
  | .local _ .vmem, ⟨12, _⟩ => ⟨S2048x3, .f32⟩
  | .local _ .vmem, ⟨13, _⟩ => ⟨S2048x256, .f32⟩
  | .local _ .vmem, ⟨14, _⟩ => ⟨S2048x256, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S259x512_S256x512_0_0 : S259x512.Slices ![0, 0] S256x512
  slices_S259x512_S3x512_256_0 : S259x512.Slices ![256, 0] S3x512
  bitsLt_bf16_f32 : FTy.bits .bf16 < FTy.bits .f32
  inb_S64x384_S64x128_0_0 : ∀ a, (![0, 0] : Fin 2 → Nat) a + S64x128.size a ≤ S64x384.size a
  h_S64x128 : 0 < S64x128.numel
  inb_S64x384_S64x256_0_128 : ∀ a, (![0, 128] : Fin 2 → Nat) a + S64x256.size a ≤ S64x384.size a
  h_S64x256 : 0 < S64x256.numel
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S96_S96_0 : ∀ a, (![0] : Fin 1 → Nat) a + S96.size a ≤ S96.size a
  h_S96 : 0 < S96.numel
  shapeCasts_S96_S1x96 : S96.ShapeCasts S1x96
  broadcasts_S1x96_S64x96 : S1x96.Broadcasts S64x96
  shapeCasts_S64x96_S2048x3 : S64x96.ShapeCasts S2048x3
  inb_S2048x3_S2048x3_0_0 : ∀ a, (![0, 0] : Fin 2 → Nat) a + S2048x3.size a ≤ S2048x3.size a
  h_S2048x3 : 0 < S2048x3.numel
  shapeCasts_S64x256_S64x1x256 : S64x256.ShapeCasts S64x1x256
  shapeCasts_S64x1x256_S64x1x256 : S64x1x256.ShapeCasts S64x1x256
  broadcasts_S64x1x256_S64x32x256 : S64x1x256.Broadcasts S64x32x256
  shapeCasts_S64x32x256_S2048x256 : S64x32x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S4096_S4096x32_0 : S4096.BroadcastsInDim S4096x32 (![0] : Fin 1 → Fin S4096x32.rank)
  shapeCasts_S4096x32_S131072 : S4096x32.ShapeCasts S131072
  dot_S64x128_S128x96_S64x96_1_0_0_1_n_n_wf : DotDims.WF S64x128 S128x96 S64x96 [1] [0] [0] [1] [] []
  dot_S2048x256_S256x512_S2048x512_1_0_0_1_n_n_wf : DotDims.WF S2048x256 S256x512 S2048x512 [1] [0] [0] [1] [] []
  dot_S2048x3_S3x512_S2048x512_1_0_0_1_n_n_wf : DotDims.WF S2048x3 S3x512 S2048x512 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x384.size a ≤ S4096x384.size a
  hwx0_0 : ∀ i : grid0.Coords, EltTy.bits .f32 = 32 ∨ (Rect.block (s := S4096x384) S64x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .bf16 = 32 ∨ (Rect.block (s := S128x96) S128x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .bf16 = 32 ∨ (Rect.block (s := S3x512) S3x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x3.size a ≤ S131072x3.size a
  hwx0_10 : ∀ i : grid0.Coords, EltTy.bits .f32 = 32 ∨ (Rect.block (s := S131072x3) S2048x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S131072x256.size a
  hwx0_11 : ∀ i : grid0.Coords, EltTy.bits .f32 = 32 ∨ (Rect.block (s := S131072x256) S2048x256.size (cc0_transform_11 i) (hinb0_11 i)).WholeWords (EltTy.packing .f32)

variable [Facts₀]

def dot_S64x128_S128x96_S64x96_1_0_0_1_n_n : DotDims S64x128 S128x96 S64x96 where
  lhsContracting := [1]
  rhsContracting := [0]
  lhsNonContracting := [0]
  rhsNonContracting := [1]
  lhsBatch := []
  rhsBatch := []
  wf := dot_S64x128_S128x96_S64x96_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x3_S3x512_S2048x512_1_0_0_1_n_n : DotDims S2048x3 S3x512 S2048x512 where
  lhsContracting := [1]
  rhsContracting := [0]
  lhsNonContracting := [0]
  rhsNonContracting := [1]
  lhsBatch := []
  rhsBatch := []
  wf := dot_S2048x3_S3x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S64x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_0) S2048x3.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_1) S2048x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x384 : Shape := ⟨2, ![4096, 384]⟩
abbrev S128x96 : Shape := ⟨2, ![128, 96]⟩
abbrev S96 : Shape := ⟨1, ![96]⟩
abbrev S259x512 : Shape := ⟨2, ![259, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S4096x128 : Shape := ⟨2, ![4096, 128]⟩
abbrev S4096x256 : Shape := ⟨2, ![4096, 256]⟩
abbrev S4096x96 : Shape := ⟨2, ![4096, 96]⟩
abbrev S1x96 : Shape := ⟨2, ![1, 96]⟩
abbrev S131072x3 : Shape := ⟨2, ![131072, 3]⟩
abbrev S4096 : Shape := ⟨1, ![4096]⟩
abbrev S4096x32 : Shape := ⟨2, ![4096, 32]⟩
abbrev S131072 : Shape := ⟨1, ![131072]⟩
abbrev S_ : Shape := ⟨0, ![]⟩
abbrev S131072x1 : Shape := ⟨2, ![131072, 1]⟩
abbrev S131072x256 : Shape := ⟨2, ![131072, 256]⟩
abbrev S131072x259 : Shape := ⟨2, ![131072, 259]⟩
abbrev S131072x512 : Shape := ⟨2, ![131072, 512]⟩
abbrev S1x512 : Shape := ⟨2, ![1, 512]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S128x96, .f32⟩
  | .hbm, ⟨2, _⟩ => ⟨S96, .f32⟩
  | .hbm, ⟨3, _⟩ => ⟨S259x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S4096x128, .f32⟩
  | .hbm, ⟨10, _⟩ => ⟨S4096x256, .f32⟩
  | .hbm, ⟨11, _⟩ => ⟨S4096x96, .f32⟩
  | .hbm, ⟨12, _⟩ => ⟨S1x96, .f32⟩
  | .hbm, ⟨13, _⟩ => ⟨S4096x96, .f32⟩
  | .hbm, ⟨14, _⟩ => ⟨S4096x96, .f32⟩
  | .hbm, ⟨15, _⟩ => ⟨S131072x3, .f32⟩
  | .hbm, ⟨16, _⟩ => ⟨S4096, .i32⟩
  | .hbm, ⟨17, _⟩ => ⟨S4096x32, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x256, .f32⟩
  | .hbm, ⟨28, _⟩ => ⟨S131072x259, .f32⟩
  | .hbm, ⟨29, _⟩ => ⟨S131072x512, .f32⟩
  | .hbm, ⟨30, _⟩ => ⟨S1x512, .f32⟩
  | .hbm, ⟨31, _⟩ => ⟨S131072x512, .f32⟩
  | .hbm, ⟨32, _⟩ => ⟨S131072x512, .f32⟩
  | .hbm, ⟨33, _⟩ => ⟨S_, .f32⟩
  | .hbm, ⟨34, _⟩ => ⟨S131072x512, .f32⟩
  | .hbm, ⟨35, _⟩ => ⟨S131072x512, .f32⟩
  | .hbm, ⟨36, _⟩ => ⟨S131072x512, .f32⟩
  | .hbm, ⟨37, _⟩ => ⟨S1x512, .f32⟩
  | .hbm, ⟨38, _⟩ => ⟨S131072x512, .f32⟩
  | .hbm, ⟨39, _⟩ => ⟨S131072x512, .f32⟩
  | .hbm, ⟨40, _⟩ => ⟨S_, .f32⟩
  | .hbm, ⟨41, _⟩ => ⟨S131072x512, .f32⟩
  | .hbm, ⟨42, _⟩ => ⟨S131072x512, .f32⟩
  | .hbm, ⟨43, _⟩ => ⟨S131072x256, .f32⟩
  | .hbm, ⟨44, _⟩ => ⟨S1x256, .f32⟩
  | .hbm, ⟨45, _⟩ => ⟨S131072x256, .f32⟩
  | .hbm, ⟨46, _⟩ => ⟨S131072x256, .f32⟩
  | .hbm, ⟨47, _⟩ => ⟨S_, .f32⟩
  | .hbm, ⟨48, _⟩ => ⟨S131072x256, .f32⟩
  | .hbm, ⟨49, _⟩ => ⟨S131072x256, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_cst : Ref sig .tc := ⟨.hbm, 47, rfl⟩
abbrev main_call2_v0 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  slices_S4096x384_S4096x128_0_0 : S4096x384.Slices ![0, 0] S4096x128
  slices_S4096x384_S4096x256_0_128 : S4096x384.Slices ![0, 128] S4096x256
  bcast_S96_S1x96_1 : S96.BroadcastsInDim S1x96 (![1] : Fin 1 → Fin S1x96.rank)
  bcast_S1x96_S4096x96_0_1 : S1x96.BroadcastsInDim S4096x96 (![0, 1] : Fin 2 → Fin S4096x96.rank)
  shapeCasts_S4096x96_S131072x3 : S4096x96.ShapeCasts S131072x3
  bcast_S4096_S4096x32_0 : S4096.BroadcastsInDim S4096x32 (![0] : Fin 1 → Fin S4096x32.rank)
  shapeCasts_S4096x32_S131072 : S4096x32.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x256_S131072x3_S131072x259_d1 : Shape.Concatenates [S131072x256, S131072x3] S131072x259 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  dot_S4096x128_S128x96_S4096x96_1_0_0_1_n_n_wf : DotDims.WF S4096x128 S128x96 S4096x96 [1] [0] [0] [1] [] []
  gather_S4096x256_S131072x1_S131072x256_1_0_n_n_0_1_1256_wf : GatherDims.WF S4096x256 S131072x1 S131072x256 [1] [0] [] [0] [] 1 ![1, 256]
  dot_S131072x259_S259x512_S131072x512_1_0_0_1_n_n_wf : DotDims.WF S131072x259 S259x512 S131072x512 [1] [0] [0] [1] [] []
  dot_S131072x512_S512x512_S131072x512_1_0_0_1_n_n_wf : DotDims.WF S131072x512 S512x512 S131072x512 [1] [0] [0] [1] [] []
  dot_S131072x512_S512x256_S131072x256_1_0_0_1_n_n_wf : DotDims.WF S131072x512 S512x256 S131072x256 [1] [0] [0] [1] [] []

variable [Facts₀]

def dot_S4096x128_S128x96_S4096x96_1_0_0_1_n_n : DotDims S4096x128 S128x96 S4096x96 where
  lhsContracting := [1]
  rhsContracting := [0]
  lhsNonContracting := [0]
  rhsNonContracting := [1]
  lhsBatch := []
  rhsBatch := []
  wf := dot_S4096x128_S128x96_S4096x96_1_0_0_1_n_n_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def dot_S131072x259_S259x512_S131072x512_1_0_0_1_n_n : DotDims S131072x259 S259x512 S131072x512 where
  lhsContracting := [1]
  rhsContracting := [0]
  lhsNonContracting := [0]
  rhsNonContracting := [1]
  lhsBatch := []
  rhsBatch := []
  wf := dot_S131072x259_S259x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.BodyValue.lean ====
/-
  The kernel body's three stored values, entry by entry, at the ideal instance.

  At one grid point the body holds 64 parents' rows. It decodes their neighbourhood features into a `[64, 96]`
  array (a matrix product plus a bias row) and lays it out again as `[2048, 3]`: entry `(r, j)` is the decoded entry at
  row-major position `3 r + j`. It repeats each parent's pass-through features over its 32 points, `[64, 256]` to
  `[2048, 256]` (point `r` reads parent `r / 32`), and runs three dense layers on the `2048` rows; the first layer is
  the sum of two matrix products, one with the 256 weight rows that meet the features, one with the 3 that meet the
  coordinates.
-/
import proofs.«124727_j42820823941127_1_alg».proof.Proof.Gen.KernelIdeal.Skeleton
import proofs.«124727_j42820823941127_1_alg».proof.Proof.LibPlainMatmul
import proofs.«124727_j42820823941127_1_alg».proof.Proof.LibOuterLayout
import proofs.«124727_j42820823941127_1_alg».proof.Proof.LibRank3Layout
import proofs.«124727_j42820823941127_1_alg».proof.Proof.LibLeadingAxisLayout
import Idealize.ShloMosaic.Lib.Pipeline.Value
import Idealize.ShloMosaic.Lib.ValueIdx
import Idealize.ShloMosaic.Lib.ValueLayout
import Idealize.ShloMosaic.PureOps.Ideal.Laws

noncomputable section

namespace Cert.BodyValue

open Cert.KernelIdeal Cert.KernelIdeal.Gen Idealize.ShloMosaic Idealize.ShloMosaic.ValueIdx

/-- The zero every layer's result is compared with. -/
abbrev zero : EReal := Ideal.ofBits .f32 0x00000000#32

/-- The decoded points of the block: entry `(r, j)`, at row-major position `3 r + j = 96 p + q` of the decoded array,
    is the product of parent `p`'s neighbourhood features with column `q` of the decoder, plus the bias at `q`. -/
theorem points_apply (v0 : Vec Ideal S64x128 .f32) (v3 : Vec Ideal S128x96 .bf16) (v6 : Vec Ideal S96 .f32)
    (r : Fin 2048) (j : Fin 3) (p : Fin 64) (q : Fin 96) (hpq : p.val * 96 + q.val = r.val * 3 + j.val) :
    k0_pay2 (F := Ideal) v0 v3 v6 (ix2 r j) = (∑ k : Fin 128, v0 (ix2 p k) * v3 (ix2 k q)) + v6 (ix1 q) := by
  unfold k0_pay2
  refine (shapeCast_apply _ shapeCasts_S64x96_S2048x3 (ix2 r j) (ix2 p q) (by
    rw [Shape.rowMajor_val_two, Shape.rowMajor_val_two]; exact hpq)).trans ?_
  refine (addf_apply _ _ _).trans ?_
  refine congrArg₂ (· + ·) ?_ ?_
  · refine (Cert.PlainMatmul.plain_apply _ _ p q).trans ?_
    refine Finset.sum_congr rfl fun k _ => ?_
    exact congrArg (fun z => v0 (ix2 p k) * z) (congrFun (shapeCast_self v3 _) _)
  · exact Cert.LeadingAxisLayout.rows_apply v6 _ _ p q

/-- The pass-through features repeated over each parent's 32 points: row `r = 32 a + s` reads parent `a`. -/
theorem repeat_apply (v1 : Vec Ideal S64x256 .f32) (r : Fin 2048) (k : Fin 256) (a : Fin 64) (s : Fin 32)
    (hr : r.val = a.val * 32 + s.val) :
    shapeCast S2048x256 (broadcastTo S64x32x256 (shapeCast S64x1x256 (shapeCast S64x1x256 v1
      shapeCasts_S64x256_S64x1x256) shapeCasts_S64x1x256_S64x1x256) broadcasts_S64x1x256_S64x32x256)
      shapeCasts_S64x32x256_S2048x256 (ix2 r k) = v1 (ix2 a k) := by
  refine (Cert.Rank3Layout.shapeCast_abn_mn_apply _ shapeCasts_S64x32x256_S2048x256 a s k r hr).trans ?_
  refine (Cert.OuterLayout.broadcastTo_a1n_abn_apply _ broadcasts_S64x1x256_S64x32x256 a s k).trans ?_
  refine (congrFun (shapeCast_self _ shapeCasts_S64x1x256_S64x1x256) _).trans ?_
  exact Cert.OuterLayout.shapeCast_an_a1n_apply v1 shapeCasts_S64x256_S64x1x256 a 0 k

/-- The second layer's product, before its bias: entry `(r, c)` sums, over the 512 units `k` of the first layer, the
    first layer's value at `(r, k)` — the maximum with zero of the features' product, plus the coordinates' product,
    plus the bias — times the second weight at `(k, c)`. -/
theorem hidden2_apply (v0 : Vec Ideal S64x128 .f32) (v1 : Vec Ideal S64x256 .f32) (v3 : Vec Ideal S128x96 .bf16)
    (v6 : Vec Ideal S96 .f32) (v18 : Vec Ideal S256x512 .bf16) (v20 : Vec Ideal S3x512 .bf16)
    (v25 : Vec Ideal S512 .f32) (v32 : Vec Ideal S512x512 .bf16)
    (r : Fin 2048) (c : Fin 512) (a : Fin 64) (s : Fin 32) (hr : r.val = a.val * 32 + s.val) :
    k0_pay3 (F := Ideal) v0 v1 v3 v6 v18 v20 v25 v32 (ix2 r c)
      = ∑ k : Fin 512, max (((∑ k' : Fin 256, v1 (ix2 a k') * v18 (ix2 k' k))
          + ∑ k' : Fin 3, k0_pay2 (F := Ideal) v0 v3 v6 (ix2 r k') * v20 (ix2 k' k)) + v25 (ix1 k)) zero
          * v32 (ix2 k c) := by
  unfold k0_pay3
  refine (Cert.PlainMatmul.plain_apply _ _ r c).trans ?_
  refine Finset.sum_congr rfl fun k _ => ?_
  refine congrArg₂ (· * ·) ?_ (congrFun (shapeCast_self v32 _) _)
  refine (truncf_apply (φ := .f32) (ψ := .bf16) _ bitsLt_bf16_f32 _).trans ?_
  refine (maximumf_apply _ _ _).trans ?_
  refine congrArg₂ max ?_ rfl
  refine (addf_apply _ _ _).trans ?_
  refine congrArg₂ (· + ·) ?_ (Cert.LeadingAxisLayout.rows_apply v25 _ _ r k)
  refine (addf_apply _ _ _).trans ?_
  refine congrArg₂ (· + ·) ?_ ?_
  · refine (Cert.PlainMatmul.plain_apply _ _ r k).trans ?_
    refine Finset.sum_congr rfl fun k' _ => ?_
    refine congrArg₂ (· * ·) ?_ (congrFun (shapeCast_self v18 _) _)
    refine (truncf_apply (φ := .f32) (ψ := .bf16) _ bitsLt_bf16_f32 _).trans ?_
    exact repeat_apply v1 r k' a s hr
  · refine (Cert.PlainMatmul.plain_apply _ _ r k).trans ?_
    refine Finset.sum_congr rfl fun k' _ => ?_
    exact congrArg (fun z => k0_pay2 (F := Ideal) v0 v3 v6 (ix2 r k') * z) (congrFun (shapeCast_self v20 _) _)

/-- The third layer from the second layer's product: entry `(r, c)` is the maximum with zero of the sum, over the 512
    units `k`, of the second layer's value at `(r, k)` times the third weight at `(k, c)`, plus the bias. -/
theorem layer3_apply (v34 : FVec Ideal S2048x512 .f32) (v35 : Vec Ideal S512 .f32) (v42 : Vec Ideal S512x256 .bf16)
    (v45 : Vec Ideal S256 .f32) (r : Fin 2048) (c : Fin 256) :
    k0_pay1 (F := Ideal) v34 v35 v42 v45 (ix2 r c)
      = max ((∑ k : Fin 512, max (v34 (ix2 r k) + v35 (ix1 k)) zero * v42 (ix2 k c)) + v45 (ix1 c)) zero := by
  unfold k0_pay1
  refine (maximumf_apply _ _ _).trans ?_
  refine congrArg₂ max ?_ rfl
  refine (addf_apply _ _ _).trans ?_
  refine congrArg₂ (· + ·) ?_ (Cert.LeadingAxisLayout.rows_apply v45 _ _ r c)
  refine (Cert.PlainMatmul.plain_apply _ _ r c).trans ?_
  refine Finset.sum_congr rfl fun k _ => ?_
  refine congrArg₂ (· * ·) ?_ (congrFun (shapeCast_self v42 _) _)
  refine (truncf_apply (φ := .f32) (ψ := .bf16) _ bitsLt_bf16_f32 _).trans ?_
  refine (maximumf_apply _ _ _).trans ?_
  refine congrArg₂ max ?_ rfl
  refine (addf_apply _ _ _).trans ?_
  exact congrArg (fun z => v34 (ix2 r k) + z) (Cert.LeadingAxisLayout.rows_apply v35 _ _ r k)

end Cert.BodyValue

end
-- ==== Proof.DecoderSpec.lean ====
/-
  What the point decoder computes, entry by entry, on the extended reals.

  A parent row `p` of the input holds 128 neighbourhood features followed by 256 pass-through features. The
  neighbourhood features are mapped by one affine layer to 96 numbers, read as 32 points of 3 coordinates: the
  decoded array `[4096, 96]` laid out again as `[131072, 3]`, so that entry `(i, j)` of the points is the decoded
  entry at row-major position `3 i + j`. Point `i` belongs to parent `i / 32`; its row for the three dense layers is
  the parent's 256 pass-through features followed by its own 3 coordinates, and the first layer's product with
  the `[259, 512]` weight is therefore the sum over the first 256 weight rows plus the sum over the last 3. Each
  layer is an affine map followed by the maximum with zero.
-/
import Idealize.ShloMosaic.Lib.ValueIdx
import Idealize.ShloMosaic.PureOps.Ideal.Laws

noncomputable section

namespace Cert.DecoderSpec

open Idealize.ShloMosaic Idealize.ShloMosaic.ValueIdx

/-- The parent of point `i`. -/
def parent (i : Fin 131072) : Fin 4096 := ⟨i.val / 32, by have := i.isLt; omega⟩
/-- Column `k` of the neighbourhood features within an input row. -/
def neighCol (k : Fin 128) : Fin 384 := ⟨k.val, by have := k.isLt; omega⟩
/-- Column `k` of the pass-through features within an input row. -/
def featCol (k : Fin 256) : Fin 384 := ⟨128 + k.val, by have := k.isLt; omega⟩
/-- The decoded row holding coordinate `j` of point `i`. -/
def flatRow (i : Fin 131072) (j : Fin 3) : Fin 4096 :=
  ⟨(i.val * 3 + j.val) / 96, by have := i.isLt; have := j.isLt; omega⟩
/-- The decoded column holding coordinate `j` of point `i`. -/
def flatCol (i : Fin 131072) (j : Fin 3) : Fin 96 := ⟨(i.val * 3 + j.val) % 96, Nat.mod_lt _ (by decide)⟩
/-- Row `k` of the first layer's weight, among the 256 that meet the pass-through features. -/
def featRow (k : Fin 256) : Fin 259 := ⟨k.val, by have := k.isLt; omega⟩
/-- Row `k` of the first layer's weight, among the 3 that meet a point's coordinates. -/
def relRow (k : Fin 3) : Fin 259 := ⟨256 + k.val, by have := k.isLt; omega⟩

/-- The zero every layer's result is compared with. -/
abbrev zero : EReal := Ideal.ofBits .f32 0x00000000#32

/-- A sum over the 259 rows of the first weight is the sum over the first 256 plus the sum over the last 3. -/
theorem sum_rows (f : Fin 259 → EReal) :
    ∑ k : Fin 259, f k = ∑ k : Fin 256, f (featRow k) + ∑ k : Fin 3, f (relRow k) :=
  Fin.sum_univ_add (a := 256) (b := 3) f

section
variable (X : FVec Ideal ⟨2, ![4096, 384]⟩ .f32) (Wd : FVec Ideal ⟨2, ![128, 96]⟩ .f32)
  (bd : FVec Ideal ⟨1, ![96]⟩ .f32)

/-- The decoded array: the neighbourhood features of parent `p` through the affine decoder, entry `q`. -/
def dec (p : Fin 4096) (q : Fin 96) : EReal :=
  (∑ k : Fin 128, X (ix2 p (neighCol k)) * Wd (ix2 k q)) + bd (ix1 q)

/-- Coordinate `j` of point `i`. -/
def rel (i : Fin 131072) (j : Fin 3) : EReal := dec X Wd bd (flatRow i j) (flatCol i j)

/-- The points as an array. -/
def relOut : FVec Ideal ⟨2, ![131072, 3]⟩ .f32 := fun i => rel X Wd bd (i 0) (i 1)

variable (W1 : FVec Ideal ⟨2, ![259, 512]⟩ .f32) (b1 : FVec Ideal ⟨1, ![512]⟩ .f32)

/-- The first layer at point `i`, unit `c`. -/
def h1 (i : Fin 131072) (c : Fin 512) : EReal :=
  max (((∑ k : Fin 256, X (ix2 (parent i) (featCol k)) * W1 (ix2 (featRow k) c))
      + ∑ k : Fin 3, rel X Wd bd i k * W1 (ix2 (relRow k) c)) + b1 (ix1 c)) zero

variable (W2 : FVec Ideal ⟨2, ![512, 512]⟩ .f32) (b2 : FVec Ideal ⟨1, ![512]⟩ .f32)

/-- The second layer at point `i`, unit `c`. -/
def h2 (i : Fin 131072) (c : Fin 512) : EReal :=
  max ((∑ k : Fin 512, h1 X Wd bd W1 b1 i k * W2 (ix2 k c)) + b2 (ix1 c)) zero

variable (W3 : FVec Ideal ⟨2, ![512, 256]⟩ .f32) (b3 : FVec Ideal ⟨1, ![256]⟩ .f32)

/-- The third layer at point `i`, unit `c`. -/
def h3 (i : Fin 131072) (c : Fin 256) : EReal :=
  max ((∑ k : Fin 512, h2 X Wd bd W1 b1 W2 b2 i k * W3 (ix2 k c)) + b3 (ix1 c)) zero

/-- The third layer as an array. -/
def hOut : FVec Ideal ⟨2, ![131072, 256]⟩ .f32 := fun i => h3 X Wd bd W1 b1 W2 b2 W3 b3 (i 0) (i 1)

end

end Cert.DecoderSpec

end
-- ==== Proof.BodySpec.lean ====
/-
  The kernel body at grid point `t` computes block `t` of the decoder's specification.

  Grid point `t` holds parents `64 t … 64 t + 63` and their points `2048 t … 2048 t + 2047`. Point `2048 t + r` has parent
  `64 t + r / 32`, and coordinate `j` of it sits in the decoded array at row `64 t + (3 r + j) / 96`, column
  `(3 r + j) % 96`: the block's own decoded array is the corresponding 64 rows of the whole one. So every stored
  value of the body, read at a local entry, is the specification's value at the corresponding global entry, once
  the loaded blocks are known to be the corresponding parts of the argument arrays.
-/
import proofs.«124727_j42820823941127_1_alg».proof.Proof.BodyValue
import proofs.«124727_j42820823941127_1_alg».proof.Proof.DecoderSpec

noncomputable section

namespace Cert.BodyValue

open Cert.KernelIdeal Cert.KernelIdeal.Gen Idealize.ShloMosaic Idealize.ShloMosaic.ValueIdx Cert.DecoderSpec

/-- Point `r` of grid point `t`'s block, among all points. -/
def pointRow (t : Fin 64) (r : Fin 2048) : Fin 131072 :=
  ⟨t.val * 2048 + r.val, by have := t.isLt; have := r.isLt; omega⟩
/-- Parent `p` of grid point `t`'s block, among all parents. -/
def parentRow (t : Fin 64) (p : Fin 64) : Fin 4096 :=
  ⟨t.val * 64 + p.val, by have := t.isLt; have := p.isLt; omega⟩

section
variable (X : FVec Ideal ⟨2, ![4096, 384]⟩ .f32) (Wd : FVec Ideal ⟨2, ![128, 96]⟩ .f32)
  (bd : FVec Ideal ⟨1, ![96]⟩ .f32)
  (v0 : Vec Ideal S64x128 .f32) (v3 : Vec Ideal S128x96 .bf16) (v6 : Vec Ideal S96 .f32) (t : Fin 64)
  (e0 : ∀ (p : Fin 64) (k : Fin 128), v0 (ix2 p k) = X (ix2 (parentRow t p) (neighCol k)))
  (e3 : ∀ (k : Fin 128) (q : Fin 96), v3 (ix2 k q) = Wd (ix2 k q))
  (e6 : ∀ q : Fin 96, v6 (ix1 q) = bd (ix1 q))

include e0 e3 e6 in
/-- The block's decoded points are the specification's points of the block's rows. -/
theorem points_spec (r : Fin 2048) (j : Fin 3) :
    k0_pay2 (F := Ideal) v0 v3 v6 (ix2 r j) = rel X Wd bd (pointRow t r) j := by
  have hr := r.isLt; have hj := j.isLt; have ht := t.isLt
  rw [points_apply v0 v3 v6 r j ⟨(r.val * 3 + j.val) / 96, by omega⟩
    ⟨(r.val * 3 + j.val) % 96, Nat.mod_lt _ (by decide)⟩
    (by show (r.val * 3 + j.val) / 96 * 96 + (r.val * 3 + j.val) % 96 = r.val * 3 + j.val; omega)]
  unfold rel dec
  have ec : flatCol (pointRow t r) j = ⟨(r.val * 3 + j.val) % 96, Nat.mod_lt _ (by decide)⟩ :=
    Fin.ext (by show ((t.val * 2048 + r.val) * 3 + j.val) % 96 = (r.val * 3 + j.val) % 96; omega)
  have er : flatRow (pointRow t r) j = parentRow t ⟨(r.val * 3 + j.val) / 96, by omega⟩ :=
    Fin.ext (by show ((t.val * 2048 + r.val) * 3 + j.val) / 96 = t.val * 64 + (r.val * 3 + j.val) / 96; omega)
  rw [ec, er]
  refine congrArg₂ (· + ·) (Finset.sum_congr rfl fun k _ => ?_) (e6 _)
  rw [e0, e3]

variable (W1 : FVec Ideal ⟨2, ![259, 512]⟩ .f32) (b1 : FVec Ideal ⟨1, ![512]⟩ .f32)
  (W2 : FVec Ideal ⟨2, ![512, 512]⟩ .f32) (b2 : FVec Ideal ⟨1, ![512]⟩ .f32)
  (W3 : FVec Ideal ⟨2, ![512, 256]⟩ .f32) (b3 : FVec Ideal ⟨1, ![256]⟩ .f32)
  (v1 : Vec Ideal S64x256 .f32) (v18 : Vec Ideal S256x512 .bf16) (v20 : Vec Ideal S3x512 .bf16)
  (v25 : Vec Ideal S512 .f32) (v32 : Vec Ideal S512x512 .bf16) (v35 : Vec Ideal S512 .f32)
  (v42 : Vec Ideal S512x256 .bf16) (v45 : Vec Ideal S256 .f32)
  (e1 : ∀ (p : Fin 64) (k : Fin 256), v1 (ix2 p k) = X (ix2 (parentRow t p) (featCol k)))
  (e18 : ∀ (k : Fin 256) (c : Fin 512), v18 (ix2 k c) = W1 (ix2 (featRow k) c))
  (e20 : ∀ (k : Fin 3) (c : Fin 512), v20 (ix2 k c) = W1 (ix2 (relRow k) c))
  (e25 : ∀ c : Fin 512, v25 (ix1 c) = b1 (ix1 c))
  (e32 : ∀ (k : Fin 512) (c : Fin 512), v32 (ix2 k c) = W2 (ix2 k c))
  (e35 : ∀ c : Fin 512, v35 (ix1 c) = b2 (ix1 c))
  (e42 : ∀ (k : Fin 512) (c : Fin 256), v42 (ix2 k c) = W3 (ix2 k c))
  (e45 : ∀ c : Fin 256, v45 (ix1 c) = b3 (ix1 c))

include e0 e3 e6 e1 e18 e20 e25 e32 e35 e42 e45 in
/-- The block's third layer is the specification's third layer of the block's rows. -/
theorem hidden_spec (r : Fin 2048) (c : Fin 256) :
    k0_pay1 (F := Ideal) (k0_pay3 v0 v1 v3 v6 v18 v20 v25 v32) v35 v42 v45 (ix2 r c)
      = DecoderSpec.h3 X Wd bd W1 b1 W2 b2 W3 b3 (pointRow t r) c := by
  have hr := r.isLt; have ht := t.isLt
  rw [layer3_apply]
  unfold DecoderSpec.h3
  refine congrArg₂ max (congrArg₂ (· + ·) (Finset.sum_congr rfl fun k _ => ?_) (e45 c)) rfl
  refine congrArg₂ (· * ·) ?_ (e42 k c)
  unfold DecoderSpec.h2
  refine congrArg₂ max (congrArg₂ (· + ·) ?_ (e35 k)) rfl
  rw [hidden2_apply v0 v1 v3 v6 v18 v20 v25 v32 r k ⟨r.val / 32, by omega⟩ ⟨r.val % 32, Nat.mod_lt _ (by decide)⟩
    (by show r.val = r.val / 32 * 32 + r.val % 32; omega)]
  refine Finset.sum_congr rfl fun k2 _ => ?_
  refine congrArg₂ (· * ·) ?_ (e32 k2 k)
  unfold DecoderSpec.h1
  have ep : parent (pointRow t r) = parentRow t ⟨r.val / 32, by omega⟩ :=
    Fin.ext (by show (t.val * 2048 + r.val) / 32 = t.val * 64 + r.val / 32; omega)
  refine congrArg₂ max (congrArg₂ (· + ·) (congrArg₂ (· + ·) (Finset.sum_congr rfl fun k3 _ => ?_)
    (Finset.sum_congr rfl fun k3 _ => ?_)) (e25 k2)) rfl
  · rw [e1, e18, ep]
  · rw [points_spec X Wd bd v0 v3 v6 t e0 e3 e6 r k3, e20]

end

end Cert.BodyValue

end
-- ==== Proof.KernelBlocks.lean ====
/-
  From the body's blocks to the two result arrays.

  The grid has 64 points. The input rows are cut into blocks of 64 parents, block `t` at point `t`; the weights and
  biases are staged whole at every point, the weights after the host has cut the first layer's weight into its
  first 256 rows and its last 3 and changed every weight's float format (the identity on extended reals). Point `t`
  writes back rows `2048 t … 2048 t + 2047` of both results, and what it writes is that block of the specification;
  the 64 blocks tile the 131072 rows, so after the run both arrays are the specification's.
-/
import proofs.«124727_j42820823941127_1_alg».proof.Proof.Gen.KernelIdeal.Frame
import proofs.«124727_j42820823941127_1_alg».proof.Proof.BodySpec
import Idealize.ShloMosaic.Lib.Pipeline.Value
import Idealize.ShloMosaic.Lib.StableHlo.Run

set_option maxRecDepth 16384

noncomputable section

namespace Cert.KernelBlocks

open Cert.KernelIdeal Cert.KernelIdeal.Gen Idealize.ShloMosaic Idealize.ShloMosaic.TcCoe Idealize.SL.Sem
open Idealize.ShloMosaic.ValueIdx Cert.DecoderSpec Cert.BodyValue
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- A grid point as a number below 64. -/
def point (t : Fin cfg0.N) : Fin 64 := ⟨t.val, lt_of_lt_of_eq t.isLt N_0⟩

/-! ## Where each window's block sits: the printed index maps, decided over the 64 points -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 1) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 1) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 1) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 1) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)

/-! ## The arrays the host writes before the region -/

/-- The decoder's weight as the region finds it: the argument, in another float format. -/
theorem wdec_eq (c : Dev nD) : @Eq (FVec Ideal S128x96 .bf16) (V m c main_v2)
    (truncf .bf16 ((m ((c : Thread nD τ).loc main_arg1)) : FVec Ideal S128x96 .f32) bitsLt_bf16_f32) := by
  show StableHlo.after hostOps0 (fun b => m (c, b)) (Proc.devRef .tc main_v2) = _
  after_results
/-- The first 256 rows of the first layer's weight. -/
theorem w1feat_eq (c : Dev nD) : @Eq (FVec Ideal S256x512 .bf16) (V m c main_v3)
    (truncf .bf16 (extractStridedSlice S256x512 ![0, 0] ((m ((c : Thread nD τ).loc main_arg3)) : FVec Ideal S259x512 .f32) slices_S259x512_S256x512_0_0) bitsLt_bf16_f32) := by
  show StableHlo.after hostOps0 (fun b => m (c, b)) (Proc.devRef .tc main_v3) = _
  after_results
/-- The last 3 rows of the first layer's weight. -/
theorem w1rel_eq (c : Dev nD) : @Eq (FVec Ideal S3x512 .bf16) (V m c main_v4)
    (truncf .bf16 (extractStridedSlice S3x512 ![256, 0] ((m ((c : Thread nD τ).loc main_arg3)) : FVec Ideal S259x512 .f32) slices_S259x512_S3x512_256_0) bitsLt_bf16_f32) := by
  show StableHlo.after hostOps0 (fun b => m (c, b)) (Proc.devRef .tc main_v4) = _
  after_results
/-- The second layer's weight. -/
theorem w2_eq (c : Dev nD) : @Eq (FVec Ideal S512x512 .bf16) (V m c main_v5)
    (truncf .bf16 ((m ((c : Thread nD τ).loc main_arg5)) : FVec Ideal S512x512 .f32) bitsLt_bf16_f32) := by
  show StableHlo.after hostOps0 (fun b => m (c, b)) (Proc.devRef .tc main_v5) = _
  after_results
/-- The third layer's weight. -/
theorem w3_eq (c : Dev nD) : @Eq (FVec Ideal S512x256 .bf16) (V m c main_v6)
    (truncf .bf16 ((m ((c : Thread nD τ).loc main_arg7)) : FVec Ideal S512x256 .f32) bitsLt_bf16_f32) := by
  show StableHlo.after hostOps0 (fun b => m (c, b)) (Proc.devRef .tc main_v6) = _
  after_results

/-! ## The blocks staged whole -/

theorem block1_apply (c : Dev nD) (t : Fin cfg0.N) (a : Fin 128) (b : Fin 96) :
    iblk m c 1 t (ix2 a b) = V m c main_v2 (ix2 a b) := by
  obtain ⟨e0, e1⟩ := index1 t
  show V m c main_v2 (((cfg0.win 1).blk t).view.emb (ix2 a b)) = _
  refine congrArg (V m c main_v2) (funext fun x => Fin.ext ?_)
  match x with
  | ⟨0, _⟩ => show win0_1.index t (0 : Fin 2) * 128 + 1 * a.val = a.val; omega
  | ⟨1, _⟩ => show win0_1.index t (1 : Fin 2) * 96 + 1 * b.val = b.val; omega
theorem block2_apply (c : Dev nD) (t : Fin cfg0.N) (a : Fin 96) :
    iblk m c 2 t (ix1 a) = V m c main_arg2 (ix1 a) := by
  have e0 := index2 t
  show V m c main_arg2 (((cfg0.win 2).blk t).view.emb (ix1 a)) = _
  refine congrArg (V m c main_arg2) (funext fun x => Fin.ext ?_)
  match x with
  | ⟨0, _⟩ => show win0_2.index t (0 : Fin 1) * 96 + 1 * a.val = a.val; omega
theorem block3_apply (c : Dev nD) (t : Fin cfg0.N) (a : Fin 256) (b : Fin 512) :
    iblk m c 3 t (ix2 a b) = V m c main_v3 (ix2 a b) := by
  obtain ⟨e0, e1⟩ := index3 t
  show V m c main_v3 (((cfg0.win 3).blk t).view.emb (ix2 a b)) = _
  refine congrArg (V m c main_v3) (funext fun x => Fin.ext ?_)
  match x with
  | ⟨0, _⟩ => show win0_3.index t (0 : Fin 2) * 256 + 1 * a.val = a.val; omega
  | ⟨1, _⟩ => show win0_3.index t (1 : Fin 2) * 512 + 1 * b.val = b.val; omega
theorem block4_apply (c : Dev nD) (t : Fin cfg0.N) (a : Fin 3) (b : Fin 512) :
    iblk m c 4 t (ix2 a b) = V m c main_v4 (ix2 a b) := by
  obtain ⟨e0, e1⟩ := index4 t
  show V m c main_v4 (((cfg0.win 4).blk t).view.emb (ix2 a b)) = _
  refine congrArg (V m c main_v4) (funext fun x => Fin.ext ?_)
  match x with
  | ⟨0, _⟩ => show win0_4.index t (0 : Fin 2) * 3 + 1 * a.val = a.val; omega
  | ⟨1, _⟩ => show win0_4.index t (1 : Fin 2) * 512 + 1 * b.val = b.val; omega
theorem block5_apply (c : Dev nD) (t : Fin cfg0.N) (a : Fin 512) :
    iblk m c 5 t (ix1 a) = V m c main_arg4 (ix1 a) := by
  have e0 := index5 t
  show V m c main_arg4 (((cfg0.win 5).blk t).view.emb (ix1 a)) = _
  refine congrArg (V m c main_arg4) (funext fun x => Fin.ext ?_)
  match x with
  | ⟨0, _⟩ => show win0_5.index t (0 : Fin 1) * 512 + 1 * a.val = a.val; omega
theorem block6_apply (c : Dev nD) (t : Fin cfg0.N) (a : Fin 512) (b : Fin 512) :
    iblk m c 6 t (ix2 a b) = V m c main_v5 (ix2 a b) := by
  obtain ⟨e0, e1⟩ := index6 t
  show V m c main_v5 (((cfg0.win 6).blk t).view.emb (ix2 a b)) = _
  refine congrArg (V m c main_v5) (funext fun x => Fin.ext ?_)
  match x with
  | ⟨0, _⟩ => show win0_6.index t (0 : Fin 2) * 512 + 1 * a.val = a.val; omega
  | ⟨1, _⟩ => show win0_6.index t (1 : Fin 2) * 512 + 1 * b.val = b.val; omega
theorem block7_apply (c : Dev nD) (t : Fin cfg0.N) (a : Fin 512) :
    iblk m c 7 t (ix1 a) = V m c main_arg6 (ix1 a) := by
  have e0 := index7 t
  show V m c main_arg6 (((cfg0.win 7).blk t).view.emb (ix1 a)) = _
  refine congrArg (V m c main_arg6) (funext fun x => Fin.ext ?_)
  match x with
  | ⟨0, _⟩ => show win0_7.index t (0 : Fin 1) * 512 + 1 * a.val = a.val; omega
theorem block8_apply (c : Dev nD) (t : Fin cfg0.N) (a : Fin 512) (b : Fin 256) :
    iblk m c 8 t (ix2 a b) = V m c main_v6 (ix2 a b) := by
  obtain ⟨e0, e1⟩ := index8 t
  show V m c main_v6 (((cfg0.win 8).blk t).view.emb (ix2 a b)) = _
  refine congrArg (V m c main_v6) (funext fun x => Fin.ext ?_)
  match x with
  | ⟨0, _⟩ => show win0_8.index t (0 : Fin 2) * 512 + 1 * a.val = a.val; omega
  | ⟨1, _⟩ => show win0_8.index t (1 : Fin 2) * 256 + 1 * b.val = b.val; omega
theorem block9_apply (c : Dev nD) (t : Fin cfg0.N) (a : Fin 256) :
    iblk m c 9 t (ix1 a) = V m c main_arg8 (ix1 a) := by
  have e0 := index9 t
  show V m c main_arg8 (((cfg0.win 9).blk t).view.emb (ix1 a)) = _
  refine congrArg (V m c main_arg8) (funext fun x => Fin.ext ?_)
  match x with
  | ⟨0, _⟩ => show win0_9.index t (0 : Fin 1) * 256 + 1 * a.val = a.val; omega

/-! ## Each loaded value is the corresponding part of an argument array -/

/-- The neighbourhood features loaded at point `t` are those of parents `64 t … 64 t + 63`. -/
theorem neigh_block (c : Dev nD) (t : Fin cfg0.N) (p : Fin 64) (k : Fin 128) :
    View.ld (iblk m c 0 t) r0_0 (ix2 p k) = (m ((c : Thread nD τ).loc main_arg0)) (ix2 (parentRow (point t) p) (neighCol k)) := by
  obtain ⟨e0, e1⟩ := index0 t
  show V m c main_arg0 _ = _
  rw [V_main_arg0]
  refine congrArg (m ((c : Thread nD τ).loc main_arg0)) (funext fun x => Fin.ext ?_)
  match x with
  | ⟨0, _⟩ => show win0_0.index t (0 : Fin 2) * 64 + 1 * (0 + 1 * p.val) = t.val * 64 + p.val; omega
  | ⟨1, _⟩ => show win0_0.index t (1 : Fin 2) * 384 + 1 * (0 + 1 * k.val) = k.val; omega

/-- The pass-through features loaded at point `t` are those of parents `64 t … 64 t + 63`. -/
theorem feat_block (c : Dev nD) (t : Fin cfg0.N) (p : Fin 64) (k : Fin 256) :
    View.ld (iblk m c 0 t) r0_1 (ix2 p k) = (m ((c : Thread nD τ).loc main_arg0)) (ix2 (parentRow (point t) p) (featCol k)) := by
  obtain ⟨e0, e1⟩ := index0 t
  show V m c main_arg0 _ = _
  rw [V_main_arg0]
  refine congrArg (m ((c : Thread nD τ).loc main_arg0)) (funext fun x => Fin.ext ?_)
  match x with
  | ⟨0, _⟩ => show win0_0.index t (0 : Fin 2) * 64 + 1 * (0 + 1 * p.val) = t.val * 64 + p.val; omega
  | ⟨1, _⟩ => show win0_0.index t (1 : Fin 2) * 384 + 1 * (128 + 1 * k.val) = 128 + k.val; omega

/-- The decoder's weight, loaded whole. -/
theorem wdec_block (c : Dev nD) (t : Fin cfg0.N) (k : Fin 128) (q : Fin 96) :
    View.ld (iblk m c 1 t) r0_2 (ix2 k q) = (m ((c : Thread nD τ).loc main_arg1)) (ix2 k q) := by
  refine (congrFun (View.ld_unit_zero (S := S128x96) zeros2 _ (iblk m c 1 t)) (ix2 k q)).trans ?_
  refine (block1_apply m c t k q).trans ?_
  exact congrFun (wdec_eq m c) (ix2 k q)

/-- The decoder's bias, loaded whole. -/
theorem bdec_block (c : Dev nD) (t : Fin cfg0.N) (q : Fin 96) :
    View.ld (iblk m c 2 t) r0_3 (ix1 q) = (m ((c : Thread nD τ).loc main_arg2)) (ix1 q) := by
  refine (congrFun (View.ld_unit_zero (S := S96) zeros1 _ (iblk m c 2 t)) (ix1 q)).trans ?_
  refine (block2_apply m c t q).trans ?_
  exact congrFun (V_main_arg2 m c) (ix1 q)

/-- The first layer's weight rows that meet the features, loaded whole. -/
theorem w1feat_block (c : Dev nD) (t : Fin cfg0.N) (k : Fin 256) (u : Fin 512) :
    View.ld (iblk m c 3 t) r0_5 (ix2 k u) = (m ((c : Thread nD τ).loc main_arg3)) (ix2 (featRow k) u) := by
  refine (congrFun (View.ld_unit_zero (S := S256x512) zeros2 _ (iblk m c 3 t)) (ix2 k u)).trans ?_
  refine (block3_apply m c t k u).trans ?_
  refine (congrFun (w1feat_eq m c) (ix2 k u)).trans ?_
  exact extractStridedSlice_apply ![0, 0] (m ((c : Thread nD τ).loc main_arg3)) slices_S259x512_S256x512_0_0 (ix2 k u) (ix2 (featRow k) u)
    (fun a => match a with
      | ⟨0, _⟩ => by show k.val = 0 + k.val; omega
      | ⟨1, _⟩ => by show u.val = 0 + u.val; omega)

/-- The first layer's weight rows that meet the coordinates, loaded whole. -/
theorem w1rel_block (c : Dev nD) (t : Fin cfg0.N) (k : Fin 3) (u : Fin 512) :
    View.ld (iblk m c 4 t) r0_6 (ix2 k u) = (m ((c : Thread nD τ).loc main_arg3)) (ix2 (relRow k) u) := by
  refine (congrFun (View.ld_unit_zero (S := S3x512) zeros2 _ (iblk m c 4 t)) (ix2 k u)).trans ?_
  refine (block4_apply m c t k u).trans ?_
  refine (congrFun (w1rel_eq m c) (ix2 k u)).trans ?_
  exact extractStridedSlice_apply ![256, 0] (m ((c : Thread nD τ).loc main_arg3)) slices_S259x512_S3x512_256_0 (ix2 k u) (ix2 (relRow k) u)
    (fun a => match a with
      | ⟨0, _⟩ => by show 256 + k.val = 256 + k.val; rfl
      | ⟨1, _⟩ => by show u.val = 0 + u.val; omega)

/-- The first layer's bias, loaded whole. -/
theorem b1_block (c : Dev nD) (t : Fin cfg0.N) (u : Fin 512) :
    View.ld (iblk m c 5 t) r0_7 (ix1 u) = (m ((c : Thread nD τ).loc main_arg4)) (ix1 u) := by
  refine (congrFun (View.ld_unit_zero (S := S512) zeros1 _ (iblk m c 5 t)) (ix1 u)).trans ?_
  refine (block5_apply m c t u).trans ?_
  exact congrFun (V_main_arg4 m c) (ix1 u)

/-- The second layer's weight, loaded whole. -/
theorem w2_block (c : Dev nD) (t : Fin cfg0.N) (k : Fin 512) (u : Fin 512) :
    View.ld (iblk m c 6 t) r0_8 (ix2 k u) = (m ((c : Thread nD τ).loc main_arg5)) (ix2 k u) := by
  refine (congrFun (View.ld_unit_zero (S := S512x512) zeros2 _ (iblk m c 6 t)) (ix2 k u)).trans ?_
  refine (block6_apply m c t k u).trans ?_
  exact congrFun (w2_eq m c) (ix2 k u)

/-- The second layer's bias, loaded whole. -/
theorem b2_block (c : Dev nD) (t : Fin cfg0.N) (u : Fin 512) :
    View.ld (iblk m c 7 t) r0_7 (ix1 u) = (m ((c : Thread nD τ).loc main_arg6)) (ix1 u) := by
  refine (congrFun (View.ld_unit_zero (S := S512) zeros1 _ (iblk m c 7 t)) (ix1 u)).trans ?_
  refine (block7_apply m c t u).trans ?_
  exact congrFun (V_main_arg6 m c) (ix1 u)

/-- The third layer's weight, loaded whole. -/
theorem w3_block (c : Dev nD) (t : Fin cfg0.N) (k : Fin 512) (u : Fin 256) :
    View.ld (iblk m c 8 t) r0_9 (ix2 k u) = (m ((c : Thread nD τ).loc main_arg7)) (ix2 k u) := by
  refine (congrFun (View.ld_unit_zero (S := S512x256) zeros2 _ (iblk m c 8 t)) (ix2 k u)).trans ?_
  refine (block8_apply m c t k u).trans ?_
  exact congrFun (w3_eq m c) (ix2 k u)

/-- The third layer's bias, loaded whole. -/
theorem b3_block (c : Dev nD) (t : Fin cfg0.N) (u : Fin 256) :
    View.ld (iblk m c 9 t) r0_10 (ix1 u) = (m ((c : Thread nD τ).loc main_arg8)) (ix1 u) := by
  refine (congrFun (View.ld_unit_zero (S := S256) zeros1 _ (iblk m c 9 t)) (ix1 u)).trans ?_
  refine (block9_apply m c t u).trans ?_
  exact congrFun (V_main_arg8 m c) (ix1 u)

/-! ## What each point writes back -/

/-- Point `t` writes back block `t` of the specification's points. -/
theorem points_flushed (c : Dev nD) (t : Fin cfg0.N) :
    (dats m 0 c).flushed 10 t = ((cfg0.win 10).blk t).view.read (Elt Ideal) (relOut (m ((c : Thread nD τ).loc main_arg0)) (m ((c : Thread nD τ).loc main_arg1)) (m ((c : Thread nD τ).loc main_arg2))) := by
  obtain ⟨e0, e1⟩ := index10 t
  show (cfg0.win 10).cut (grid0.coords t) ((dats m 0 c).after 10 t) = _
  rw [after0_10]
  unfold out0_10
  rw [View.canon_unit_zero zeros2]
  funext j
  obtain ⟨r, q, rfl⟩ : ∃ (r : Fin 2048) (q : Fin 3), j = ix2 r q := ⟨j 0, j 1, eq_ix2 j⟩
  show k0_pay2 (F := Ideal) _ _ _ (ix2 r q) = _
  refine (points_spec (m ((c : Thread nD τ).loc main_arg0)) (m ((c : Thread nD τ).loc main_arg1)) (m ((c : Thread nD τ).loc main_arg2)) _ _ _ (point t) (neigh_block m c t) (wdec_block m c t) (bdec_block m c t) r q).trans ?_
  show rel (m ((c : Thread nD τ).loc main_arg0)) (m ((c : Thread nD τ).loc main_arg1)) (m ((c : Thread nD τ).loc main_arg2)) (pointRow (point t) r) q = relOut (m ((c : Thread nD τ).loc main_arg0)) (m ((c : Thread nD τ).loc main_arg1)) (m ((c : Thread nD τ).loc main_arg2)) (((cfg0.win 10).blk t).view.emb (ix2 r q))
  unfold relOut
  refine congrArg₂ (rel (m ((c : Thread nD τ).loc main_arg0)) (m ((c : Thread nD τ).loc main_arg1)) (m ((c : Thread nD τ).loc main_arg2))) (Fin.ext ?_) (Fin.ext ?_)
  · show t.val * 2048 + r.val = win0_10.index t (0 : Fin 2) * 2048 + 1 * r.val; omega
  · show q.val = win0_10.index t (1 : Fin 2) * 3 + 1 * q.val; omega

/-- Point `t` writes back block `t` of the specification's third layer. -/
theorem hidden_flushed (c : Dev nD) (t : Fin cfg0.N) :
    (dats m 0 c).flushed 11 t = ((cfg0.win 11).blk t).view.read (Elt Ideal)
      (hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨e0, e1⟩ := index11 t
  show (cfg0.win 11).cut (grid0.coords t) ((dats m 0 c).after 11 t) = _
  rw [after0_11]
  unfold out0_11
  rw [View.canon_unit_zero zeros2]
  funext j
  obtain ⟨r, q, rfl⟩ : ∃ (r : Fin 2048) (q : Fin 256), j = ix2 r q := ⟨j 0, j 1, eq_ix2 j⟩
  show k0_pay1 (F := Ideal) (k0_pay3 _ _ _ _ _ _ _ _) _ _ _ (ix2 r q) = _
  refine (hidden_spec (m ((c : Thread nD τ).loc main_arg0)) (m ((c : Thread nD τ).loc main_arg1)) (m ((c : Thread nD τ).loc main_arg2)) _ _ _ (point t) (neigh_block m c t) (wdec_block m c t) (bdec_block m c t)
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ _ _ _ _ _ _
    (feat_block m c t) (w1feat_block m c t) (w1rel_block m c t) (b1_block m c t) (w2_block m c t) (b2_block m c t)
    (w3_block m c t) (b3_block m c t) r q).trans ?_
  show DecoderSpec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (pointRow (point t) r) q
    = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb (ix2 r q))
  unfold hOut
  refine congrArg₂ (DecoderSpec.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Fin.ext ?_) (Fin.ext ?_)
  · show t.val * 2048 + r.val = win0_11.index t (0 : Fin 2) * 2048 + 1 * r.val; omega
  · show q.val = win0_11.index t (1 : Fin 2) * 256 + 1 * q.val; omega

/-! ## The blocks tile the results -/

/-- An index of the points array is in point `t`'s block iff each coordinate is in the block's range. -/
theorem mem_points_block (t : Fin cfg0.N) (i : S131072x3.Idx) :
    i ∈ ((cfg0.win 10).blk t).view.set ↔ ∀ a : Fin 2, win0_10.index t a * S2048x3.size a ≤ (i a).val
      ∧ (i a).val < win0_10.index t a * S2048x3.size a + S2048x3.size a := by
  show i ∈ ((View.whole main_v7_0).slice (win0_10.rect t)).set ↔ _
  rw [View.set_slice_whole, Rect.mem_set_unit]
  exact Iff.rfl

/-- An index of the third layer's array is in point `t`'s block iff each coordinate is in the block's range. -/
theorem mem_hidden_block (t : Fin cfg0.N) (i : S131072x256.Idx) :
    i ∈ ((cfg0.win 11).blk t).view.set ↔ ∀ a : Fin 2, win0_11.index t a * S2048x256.size a ≤ (i a).val
      ∧ (i a).val < win0_11.index t a * S2048x256.size a + S2048x256.size a := by
  show i ∈ ((View.whole main_v7_1).slice (win0_11.rect t)).set ↔ _
  rw [View.set_slice_whole, Rect.mem_set_unit]
  exact Iff.rfl

/-- Row `i` of the points is written back by point `i / 2048`. -/
theorem points_cover (i : S131072x3.Idx) :
    ∃ t : Fin cfg0.N, (cfg0.win 10).flush t = true ∧ i ∈ ((cfg0.win 10).blk t).view.set := by
  have h0 : (i 0).val < 131072 := (i 0).isLt
  have h1 : (i 1).val < 3 := (i 1).isLt
  let t : Fin cfg0.N := ⟨(i 0).val / 2048, lt_of_lt_of_eq (by omega : (i 0).val / 2048 < 64) N_0.symm⟩
  obtain ⟨e0, e1⟩ := index10 t
  have et : t.val = (i 0).val / 2048 := rfl
  refine ⟨t, flush0_10 t, ?_⟩
  rw [mem_points_block]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 3 ≤ (i 1).val ∧ (i 1).val < win0_10.index t (1 : Fin 2) * 3 + 3; omega

/-- Row `i` of the third layer is written back by point `i / 2048`. -/
theorem hidden_cover (i : S131072x256.Idx) :
    ∃ t : Fin cfg0.N, (cfg0.win 11).flush t = true ∧ i ∈ ((cfg0.win 11).blk t).view.set := by
  have h0 : (i 0).val < 131072 := (i 0).isLt
  have h1 : (i 1).val < 256 := (i 1).isLt
  let t : Fin cfg0.N := ⟨(i 0).val / 2048, lt_of_lt_of_eq (by omega : (i 0).val / 2048 < 64) N_0.symm⟩
  obtain ⟨e0, e1⟩ := index11 t
  have et : t.val = (i 0).val / 2048 := rfl
  refine ⟨t, flush0_11 t, ?_⟩
  rw [mem_hidden_block]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 256 ≤ (i 1).val ∧ (i 1).val < win0_11.index t (1 : Fin 2) * 256 + 256; omega

/-! ## The two arrays after the run -/

/-- The points array after the run is the specification's. -/
theorem points_final (c : Dev nD) :
    (dats m 0 c).arrAt 10 cfg0.N = relOut (m ((c : Thread nD τ).loc main_arg0)) (m ((c : Thread nD τ).loc main_arg1)) (m ((c : Thread nD τ).loc main_arg2)) :=
  (dats m 0 c).arrAt_eq_of_cover 10 _ (fun t _ => points_flushed m c t) points_cover

/-- The third layer's array after the run is the specification's. -/
theorem hidden_final (c : Dev nD) :
    (dats m 0 c).arrAt 11 cfg0.N = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 11 _ (fun t _ => hidden_flushed m c t) hidden_cover

end Cert.KernelBlocks

end
-- ==== Proof.KernelRun.lean ====
/-
  The idealized kernel's run, with its three results named.

  After the run the two arrays the region writes hold the specification's points and third layer (the blocks tile
  them). The third result, the cluster of every point, is written by the host after the region from no array at all:
  the numbers `0 … 4095` repeated 32 times along a new axis and flattened. The nine arguments end as launched.
-/
import proofs.«124727_j42820823941127_1_alg».proof.Proof.KernelBlocks

set_option maxRecDepth 16384

noncomputable section

namespace Cert.KernelRun

open Cert.KernelIdeal Cert.KernelIdeal.Gen Idealize.ShloMosaic Idealize.ShloMosaic.TcCoe Idealize.SL.Sem
open Idealize.ShloMosaic.ValueIdx Cert.DecoderSpec Cert.KernelBlocks
open Idealize.ShloMosaic.Pipeline (Dat)

variable (m : (ℓ : Loc nD τ sig) → Buf (Elt Ideal) ℓ) (ρ : Dev nD → PrngReg)

/-- The cluster of every point: parent `p` at the 32 positions `32 p … 32 p + 31`. -/
def clusters : IVec S131072 32 :=
  shapeCast S131072 (broadcastInDim S4096x32 ![0] bcast_S4096_S4096x32_0 (iotaInDim S4096 32 0)) shapeCasts_S4096x32_S131072

/-- What the host leaves in the third result after the region. -/
theorem clusters_eq (c : Dev nD) :
    @Eq (IVec S131072 32) (Pipeline.afterTail₀ cfgs (dats m) 0 (V0 m) [hostOps1] c main_v10) clusters := by
  unfold Pipeline.afterTail₀
  show StableHlo.after hostOps1 _ (Proc.devRef .tc main_v10) = _
  after_results
  rfl

/-- Every weakly fair execution of the idealized kernel ends with the points, the third layer and the clusters in
    its three results, and the arguments as launched. -/
theorem run : θ_run defs (onTc (τ := τ) (main (F := Ideal))) ⟨m, fun _ => 0, ρ⟩ fun r => ∀ c : Dev nD,
      r.2.mem ((c.tc : Thread nD τ).loc main_v7_0) = relOut (m ((c.tc : Thread nD τ).loc main_arg0)) (m ((c.tc : Thread nD τ).loc main_arg1)) (m ((c.tc : Thread nD τ).loc main_arg2))
      ∧ r.2.mem ((c.tc : Thread nD τ).loc main_v7_1) = hOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v10) = clusters
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8)) :=
  (θ_run defs _ _).mono (fun r h c => ⟨((h c).1 10).trans (points_final m c),
      ((h c).1 11).trans (hidden_final m c),
      ((h c).2 main_v10 (Pipeline.mem_restRefs_of main_v10 (by decide) (by decide))).trans (clusters_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c))),
      ((h c).2 main_arg7 (Pipeline.mem_restRefs_of main_arg7 (by decide) (by decide))).trans (W_main_arg7 m (dats m) c),
      ((h c).1 9).trans (((dats m 0 c).arrAt_in 9 rfl _).trans ((A_eq m c 9).trans (V_main_arg8 m c)))⟩)
    (run_main m ρ)

end Cert.KernelRun

end
-- ==== Proof.RefBridge.lean ====
/-
  The reference's two results are the specification, entry by entry, on the extended reals.

  The reference slices each input row into 128 neighbourhood features and 256 pass-through features, maps the
  former through the affine decoder to a [4096, 96] array and lays it out again as [131072, 3]: entry (i, j) of
  the points is the decoded entry at row-major position 3 i + j. The cluster of point i is the word i / 32 (an
  iota over the 4096 parents, repeated 32 times along a new axis and flattened); the row indexing first adds 4096
  to a negative index and the gather then clamps the start row into 0 … 4095. The word i / 32 is below 4096, so
  it is not negative as a signed word, its signed value is i / 32, and the clamp leaves it: the gathered row of
  point i is the pass-through features of parent i / 32. The gathered row joined with the point's 3 coordinates
  is the 259-entry row of the first dense layer, whose product with the [259, 512] weight splits into the sum
  over the first 256 weight rows and the sum over the last 3. Each layer is an affine map followed by the
  maximum with zero, and the zero is the same float word on both sides.
-/
import proofs.«124727_j42820823941127_1_alg».proof.Proof.Gen.ReferenceIdeal.Read
import proofs.«124727_j42820823941127_1_alg».proof.Proof.DecoderSpec

noncomputable section

namespace Cert.RefBridge

open Idealize.ShloMosaic Idealize.ShloMosaic.ValueIdx Cert.ReferenceIdeal Cert.ReferenceIdeal.Gen
open Cert.ReferenceIdeal.Read Cert.DecoderSpec

variable (X : (⟨S4096x384, .f32⟩ : BufTy).Contents (Elt Ideal)) (Wd : (⟨S128x96, .f32⟩ : BufTy).Contents (Elt Ideal))
  (bd : (⟨S96, .f32⟩ : BufTy).Contents (Elt Ideal))

/-- The decoded array at `(p, q)`. -/
theorem v5_at (p : Fin 4096) (q : Fin 96) :
    val_main_v5 (F := Ideal) X Wd bd (ix2 p q) = dec X Wd bd p q := by
  rw [val_main_v5_apply, val_main_v2_apply, val_main_v4_apply, val_main_v3_apply]
  unfold dec
  show (∑ k : Fin 128, _) + _ = _
  congr 1
  · refine Finset.sum_congr rfl fun k _ => ?_
    rw [val_main_v0_apply]
    have e1 : idx_main_v0 (lidx_main_v2 (ix2 p q) k) = ix2 p (neighCol k) :=
      funext fun a => Fin.ext (by match a with | ⟨0, _⟩ => rfl | ⟨1, _⟩ => rfl)
    have e2 : ridx_main_v2 (ix2 p q) k = ix2 k q :=
      funext fun a => Fin.ext (by match a with | ⟨0, _⟩ => rfl | ⟨1, _⟩ => rfl)
    rw [e1, e2]
  · refine congrArg bd (funext fun a => Fin.ext (by match a with | ⟨0, _⟩ => rfl))

/-- The points at `(i, j)`: the decoded array at the row-major position `3 i + j`. -/
theorem v6_at (i : Fin 131072) (j : Fin 3) :
    val_main_v6 (F := Ideal) X Wd bd (ix2 i j) = rel X Wd bd i j := by
  rw [val_main_v6_apply]
  have e : idx_main_v6 (ix2 i j) = ix2 (flatRow i j) (flatCol i j) :=
    funext fun a => Fin.ext (by match a with | ⟨0, _⟩ => rfl | ⟨1, _⟩ => rfl)
  rw [e, v5_at]
  rfl

/-- THE FIRST RESULT is the points of the specification. -/
theorem ref_rel : Cert.ReferenceIdeal.Read.val_main_v6 (F := Ideal) X Wd bd = Cert.DecoderSpec.relOut X Wd bd := by
  funext i
  obtain ⟨a, b, rfl⟩ : ∃ a b, i = ix2 a b := ⟨i 0, i 1, eq_ix2 i⟩
  exact v6_at X Wd bd a b

/-! ## The index word -/

/-- A natural below 4096 as a 32-bit word keeps its value, -/
theorem toNat_word (n : Nat) (h : n < 4096) : (BitVec.ofNat 32 n).toNat = n := by
  rw [BitVec.toNat_ofNat]; omega

/-- also read signed, -/
theorem toInt_word (n : Nat) (h : n < 4096) : (BitVec.ofNat 32 n).toInt = (n : Int) := by
  rw [BitVec.toInt_eq_toNat_cond, toNat_word n h, if_pos (by omega)]

/-- and is not below zero as a signed word. -/
theorem not_slt_word (n : Nat) (h : n < 4096) : ¬ (IntOp.cmpi .slt (BitVec.ofNat 32 n) 0#32 = 1#1) := by
  intro h'
  have h'' : BitVec.ofBool ((BitVec.ofNat 32 n).slt 0#32) = 1#1 := h'
  have h0 : (0#32 : BitVec 32).toInt = 0 := by decide
  cases hb : (BitVec.ofNat 32 n).slt 0#32 with
  | false => rw [hb] at h''; exact absurd h'' (by decide)
  | true =>
    simp only [BitVec.slt, decide_eq_true_eq] at hb
    rw [toInt_word n h, h0] at hb
    omega

/-- The cluster word of point `i` is `i / 32`: the iota's row coordinate of flat position `i` in `[4096, 32]`. -/
theorem v9_at (i : Fin 131072) : val_main_v9 (F := Ideal) (ix1 i) = BitVec.ofNat 32 (i.val / 32) := by
  rw [val_main_v9_apply, val_main_v8_apply, val_main_v7_apply]

/-- The wrap of a negative index is not taken. -/
theorem v14_at (i : Fin 131072) : val_main_v14 (F := Ideal) (ix1 i) = BitVec.ofNat 32 (i.val / 32) := by
  rw [val_main_v14_apply, val_main_v11_apply, val_main_v10_apply, val_main_c_apply, v9_at]
  exact if_neg (not_slt_word _ (by have := i.isLt; omega))

/-- The same word under the trailing unit axis. -/
theorem v15_at (i : Fin 131072) : val_main_v15 (F := Ideal) (ix2 i (0 : Fin 1)) = BitVec.ofNat 32 (i.val / 32) := by
  rw [val_main_v15_apply]
  have e : idx_main_v15 (ix2 i (0 : Fin 1)) = ix1 i := funext fun a => Fin.ext (by match a with | ⟨0, _⟩ => rfl)
  rw [e, v14_at]

/-! ## The gather -/

/-- The gather's dimension numbers: operand `[4096, 256]`, start indices `[131072, 1]`, axis 0 collapsed and indexed,
    axis 1 an offset axis of the full width. -/
abbrev G := gather_S4096x256_S131072x1_S131072x256_1_0_n_n_0_1_1256

/-- THE GATHER READS ITS OPERAND AT (start row, c): the start row is the index word of point `i`, signed, clamped
    into `0 … 4095`; the column is the result's own. -/
theorem gather_rows {α : Type} (x : S4096x256.Idx → α) (idx : IVec S131072x1 32) (i : Fin 131072) (c : Fin 256) :
    Host.gather G x idx (ix2 i c)
      = x (ix2 ⟨min (idx (ix2 i (0 : Fin 1))).toInt.toNat 4095, Nat.lt_succ_of_le (Nat.min_le_right _ _)⟩ c) := by
  unfold Host.gather
  congr 1
  funext a
  refine Fin.ext ?_
  match a with
  | ⟨0, _⟩ =>
    show G.start (ix2 i c) idx 0 + G.batchCoord (ix2 i c) 0 + G.offCoord (ix2 i c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 i c) ⟨List.idxOf (0 : Fin 2) G.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show G.start (ix2 i c) idx 1 + G.batchCoord (ix2 i c) 1 + G.offCoord (ix2 i c) 1 = c.val
    rw [GatherDims.batchCoord_eq_zero _ _ _ List.not_mem_nil]
    unfold GatherDims.start
    rw [dif_neg (show ¬ (1 : Fin 2) ∈ G.startIndexMap from by decide)]
    unfold GatherDims.offCoord
    rw [dif_pos (show (1 : Fin 2) ∈ G.sKept from by decide)]
    simp only [Nat.zero_add, Nat.add_zero]
    rfl

/-- The gathered row of point `i` is the pass-through features of parent `i / 32`. -/
theorem v16_at (i : Fin 131072) (c : Fin 256) :
    val_main_v16 (F := Ideal) X (ix2 i c) = X (ix2 (parent i) (featCol c)) := by
  unfold val_main_v16
  rw [gather_rows, val_main_v1_apply]
  refine congrArg X (funext fun a => Fin.ext ?_)
  match a with
  | ⟨0, _⟩ =>
    show min (val_main_v15 (F := Ideal) (ix2 i (0 : Fin 1))).toInt.toNat 4095 = i.val / 32
    rw [v15_at, toInt_word _ (by have := i.isLt; omega), Int.toNat_natCast]
    have := i.isLt; omega
  | ⟨1, _⟩ => rfl

/-! ## The joined row -/

/-- The joined row on its first 256 columns is the gathered row, -/
theorem v17_feat (i : Fin 131072) (k : Fin 256) :
    val_main_v17 (F := Ideal) X Wd bd (ix2 i (featRow k)) = X (ix2 (parent i) (featCol k)) := by
  unfold val_main_v17
  refine (concatenate_pair_apply_left 1 _ _ concatenates_S131072x256_S131072x3_S131072x259_d1
    (ix2 i (featRow k)) rfl (ix2 i k) ?_).trans (v16_at X i k)
  intro b
  match b with
  | ⟨0, _⟩ => rfl
  | ⟨1, _⟩ => rfl

/-- and on its last 3 columns the point's coordinates. -/
theorem v17_rel (i : Fin 131072) (k : Fin 3) :
    val_main_v17 (F := Ideal) X Wd bd (ix2 i (relRow k)) = rel X Wd bd i k := by
  unfold val_main_v17
  refine (concatenate_pair_apply_right 1 _ _ concatenates_S131072x256_S131072x3_S131072x259_d1
    (ix2 i (relRow k)) rfl rfl (ix2 i k) ?_ ?_).trans (v6_at X Wd bd i k)
  · intro b hb
    match b, hb with
    | ⟨0, _⟩, _ => rfl
    | ⟨1, _⟩, hb => exact absurd rfl hb
  · show k.val + 256 = 256 + k.val
    omega

variable (W1 : (⟨S259x512, .f32⟩ : BufTy).Contents (Elt Ideal)) (b1 : (⟨S512, .f32⟩ : BufTy).Contents (Elt Ideal))

/-- The first layer's product: the sum over the 259 weight rows split at 256. -/
theorem v18_at (i : Fin 131072) (c : Fin 512) :
    val_main_v18 (F := Ideal) X Wd bd W1 (ix2 i c)
      = (∑ k : Fin 256, X (ix2 (parent i) (featCol k)) * W1 (ix2 (featRow k) c))
        + ∑ k : Fin 3, rel X Wd bd i k * W1 (ix2 (relRow k) c) := by
  rw [val_main_v18_apply, sum_rows]
  congr 1
  · refine Finset.sum_congr rfl fun k _ => ?_
    have e1 : lidx_main_v18 (ix2 i c) (featRow k) = ix2 i (featRow k) :=
      funext fun a => Fin.ext (by match a with | ⟨0, _⟩ => rfl | ⟨1, _⟩ => rfl)
    have e2 : ridx_main_v18 (ix2 i c) (featRow k) = ix2 (featRow k) c :=
      funext fun a => Fin.ext (by match a with | ⟨0, _⟩ => rfl | ⟨1, _⟩ => rfl)
    rw [e1, e2, v17_feat]
  · refine Finset.sum_congr rfl fun k _ => ?_
    have e1 : lidx_main_v18 (ix2 i c) (relRow k) = ix2 i (relRow k) :=
      funext fun a => Fin.ext (by match a with | ⟨0, _⟩ => rfl | ⟨1, _⟩ => rfl)
    have e2 : ridx_main_v18 (ix2 i c) (relRow k) = ix2 (relRow k) c :=
      funext fun a => Fin.ext (by match a with | ⟨0, _⟩ => rfl | ⟨1, _⟩ => rfl)
    rw [e1, e2, v17_rel]

/-! ## The three layers -/

/-- The first layer. -/
theorem v22_at (i : Fin 131072) (c : Fin 512) :
    val_main_v22 (F := Ideal) X Wd bd W1 b1 (ix2 i c) = h1 X Wd bd W1 b1 i c := by
  rw [val_main_v22_apply, val_main_v21_apply, v18_at, val_main_v20_apply, val_main_v19_apply,
    val_main_call0_v0_apply, val_main_call0_cst_apply]
  have e : idx_main_v19 (idx_main_v20 (ix2 i c)) = ix1 c :=
    funext fun a => Fin.ext (by match a with | ⟨0, _⟩ => rfl)
  rw [e]
  rfl

variable (W2 : (⟨S512x512, .f32⟩ : BufTy).Contents (Elt Ideal)) (b2 : (⟨S512, .f32⟩ : BufTy).Contents (Elt Ideal))

/-- The second layer's product. -/
theorem v23_at (i : Fin 131072) (c : Fin 512) :
    val_main_v23 (F := Ideal) X Wd bd W1 b1 W2 (ix2 i c) = ∑ k : Fin 512, h1 X Wd bd W1 b1 i k * W2 (ix2 k c) := by
  rw [val_main_v23_apply]
  refine Finset.sum_congr rfl fun k _ => ?_
  have e1 : lidx_main_v23 (ix2 i c) k = ix2 i k :=
    funext fun a => Fin.ext (by match a with | ⟨0, _⟩ => rfl | ⟨1, _⟩ => rfl)
  have e2 : ridx_main_v23 (ix2 i c) k = ix2 k c :=
    funext fun a => Fin.ext (by match a with | ⟨0, _⟩ => rfl | ⟨1, _⟩ => rfl)
  rw [e1, e2, v22_at]

/-- The second layer. -/
theorem v27_at (i : Fin 131072) (c : Fin 512) :
    val_main_v27 (F := Ideal) X Wd bd W1 b1 W2 b2 (ix2 i c) = h2 X Wd bd W1 b1 W2 b2 i c := by
  rw [val_main_v27_apply, val_main_v26_apply, v23_at, val_main_v25_apply, val_main_v24_apply,
    val_main_call1_v0_apply, val_main_call1_cst_apply]
  have e : idx_main_v24 (idx_main_v25 (ix2 i c)) = ix1 c :=
    funext fun a => Fin.ext (by match a with | ⟨0, _⟩ => rfl)
  rw [e]
  rfl

variable (W3 : (⟨S512x256, .f32⟩ : BufTy).Contents (Elt Ideal)) (b3 : (⟨S256, .f32⟩ : BufTy).Contents (Elt Ideal))

/-- The third layer's product. -/
theorem v28_at (i : Fin 131072) (c : Fin 256) :
    val_main_v28 (F := Ideal) X Wd bd W1 b1 W2 b2 W3 (ix2 i c)
      = ∑ k : Fin 512, h2 X Wd bd W1 b1 W2 b2 i k * W3 (ix2 k c) := by
  rw [val_main_v28_apply]
  refine Finset.sum_congr rfl fun k _ => ?_
  have e1 : lidx_main_v28 (ix2 i c) k = ix2 i k :=
    funext fun a => Fin.ext (by match a with | ⟨0, _⟩ => rfl | ⟨1, _⟩ => rfl)
  have e2 : ridx_main_v28 (ix2 i c) k = ix2 k c :=
    funext fun a => Fin.ext (by match a with | ⟨0, _⟩ => rfl | ⟨1, _⟩ => rfl)
  rw [e1, e2, v27_at]

/-- The third layer. -/
theorem v32_at (i : Fin 131072) (c : Fin 256) :
    val_main_v32 (F := Ideal) X Wd bd W1 b1 W2 b2 W3 b3 (ix2 i c) = h3 X Wd bd W1 b1 W2 b2 W3 b3 i c := by
  rw [val_main_v32_apply, val_main_v31_apply, v28_at, val_main_v30_apply, val_main_v29_apply,
    val_main_call2_v0_apply, val_main_call2_cst_apply]
  have e : idx_main_v29 (idx_main_v30 (ix2 i c)) = ix1 c :=
    funext fun a => Fin.ext (by match a with | ⟨0, _⟩ => rfl)
  rw [e]
  rfl

/-- THE SECOND RESULT is the third layer of the specification. -/
theorem ref_h : Cert.ReferenceIdeal.Read.val_main_v32 (F := Ideal) X Wd bd W1 b1 W2 b2 W3 b3
    = Cert.DecoderSpec.hOut X Wd bd W1 b1 W2 b2 W3 b3 := by
  funext i
  obtain ⟨a, b, rfl⟩ : ∃ a b, i = ix2 a b := ⟨i 0, i 1, eq_ix2 i⟩
  exact v32_at X Wd bd W1 b1 W2 b2 W3 b3 a b

end Cert.RefBridge

end
-- ==== Proof.lean ====
/-
  The certificate of the point decoder: the kernel, its idealization and the reference all run and leave their
  arguments as launched; the idealization rewrote nothing; and at the ideal instance the kernel's three results are
  the reference's.

  Both idealized programs compute, on the extended reals, one specification (Proof/DecoderSpec.lean): the points are
  an affine map of each parent's neighbourhood features laid out three to a row; every point's row for the dense
  layers is its parent's pass-through features followed by its three coordinates; three affine layers follow, each
  cut off below at zero. The kernel works on 64 parents at a time, repeats a parent's features over its 32 points by
  a broadcast where the reference gathers by the cluster index `i / 32`, and multiplies the features and the
  coordinates with their own rows of the first weight where the reference multiplies the joined row with the whole
  weight: a sum over 259 rows split as 256 + 3, which uses only that addition of extended reals is associative and
  commutative, so the precondition is never opened. The clusters are the same host operations in both programs.
-/
import proofs.«124727_j42820823941127_1_alg».proof.Defs
import proofs.«124727_j42820823941127_1_alg».proof.Proof.Gen.Kernel
import proofs.«124727_j42820823941127_1_alg».proof.Proof.Gen.Kernel.Frame
import proofs.«124727_j42820823941127_1_alg».proof.Proof.Gen.KernelIdeal
import proofs.«124727_j42820823941127_1_alg».proof.Proof.Gen.KernelIdeal.Frame
import proofs.«124727_j42820823941127_1_alg».proof.Proof.Gen.ReferenceIdeal
import proofs.«124727_j42820823941127_1_alg».proof.Proof.Gen.ReferenceIdeal.Run
import proofs.«124727_j42820823941127_1_alg».proof.Proof.Gen.ReferenceIdeal.Read
import proofs.«124727_j42820823941127_1_alg».proof.Proof.Gen.Pre_finite_inputs
import proofs.«124727_j42820823941127_1_alg».proof.Proof.KernelRun
import proofs.«124727_j42820823941127_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- At the ideal instance both programs end with the specification's points and third layer, and the same clusters. -/
theorem algebraic : Cert.algebraic_KernelIdeal_ReferenceIdeal := by
  intro m ρ m' ρ' _ hagree
  refine ⟨fun c => Cert.DecoderSpec.relOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.DecoderSpec.hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun _ => Cert.KernelRun.clusters, Cert.KernelRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨?_, ?_, (h c).2.2.1, (h c).2.2.2⟩
  · rw [(h c).1, Cert.ReferenceIdeal.Read.val_main_v6_eq, Cert.RefBridge.ref_rel, a0, a1, a2]
  · rw [(h c).2.1, Cert.ReferenceIdeal.Read.val_main_v32_eq, Cert.RefBridge.ref_h, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
